-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128000 : Shape := ⟨2, ![8, 128000]⟩
abbrev S128000x512 : Shape := ⟨2, ![128000, 512]⟩
abbrev S_ : Shape := ⟨0, ![]⟩

class Facts : Prop where
  bcast_S_S8x128000 : S_.BroadcastsInDim S8x128000 (![] : Fin 0 → Fin S8x128000.rank)
  reducesTo_S8x128000_S_d0_1 : S8x128000.ReducesTo [0, 1] S_
  h_S_ : 0 < S_.numel
  bcast_S_S128000x512 : S_.BroadcastsInDim S128000x512 (![] : Fin 0 → Fin S128000x512.rank)
  reducesTo_S128000x512_S_d0_1 : S128000x512.ReducesTo [0, 1] S_

variable [Facts]

def fn {F : FTy → Type} [FloatOps F] (main_arg0 : FVec F S8x128000 .f32) (main_arg1 : FVec F S128000x512 .f32) : IVec S_ 1 :=
  let main_v0 : FVec F S8x128000 .f32 := Host.absf main_arg0
  let main_cst : FVec F S_ .f32 := constant S_ .f32 0x7F800000#32
  let main_v1 : FVec F S8x128000 .f32 := broadcastInDim S8x128000 ![] bcast_S_S8x128000 main_cst
  let main_v2 : IVec S8x128000 1 := cmpf .olt main_v0 main_v1
  let main_c : IVec S_ 1 := constantI S_ 1 1#1
  let main_v3 : IVec S_ 1 := (fun x v => Host.reduce IntOp.andi x v reducesTo_S8x128000_S_d0_1 h_S_) main_v2 main_c
  let main_v4 : FVec F S128000x512 .f32 := Host.absf main_arg1
  let main_cst_0 : FVec F S_ .f32 := constant S_ .f32 0x7F800000#32
  let main_v5 : FVec F S128000x512 .f32 := broadcastInDim S128000x512 ![] bcast_S_S128000x512 main_cst_0
  let main_v6 : IVec S128000x512 1 := cmpf .olt main_v4 main_v5
  let main_c_1 : IVec S_ 1 := constantI S_ 1 1#1
  let main_v7 : IVec S_ 1 := (fun x v => Host.reduce IntOp.andi x v reducesTo_S128000x512_S_d0_1 h_S_) main_v6 main_c_1
  let main_v8 : IVec S_ 1 := andi main_v3 main_v7
  main_v8
-- ==== Kernel.lean ====
abbrev S8x128000 : Shape := ⟨2, ![8, 128000]⟩
abbrev S128000x512 : Shape := ⟨2, ![128000, 512]⟩
abbrev S_ : Shape := ⟨0, ![]⟩
abbrev S2x8x512 : Shape := ⟨3, ![2, 8, 512]⟩
abbrev S8x6400 : Shape := ⟨2, ![8, 6400]⟩
abbrev S6400x512 : Shape := ⟨2, ![6400, 512]⟩
abbrev S1x8x512 : Shape := ⟨3, ![1, 8, 512]⟩
abbrev S8x512 : Shape := ⟨2, ![8, 512]⟩

abbrev nBuf : Space → Nat
  | .hbm => 35
  | .vmem => 11
  | .smem => 0
  | _ => 0

abbrev bufTy : (tb : Table) → Fin (tcTables nBuf tb) → BufTy
  | .hbm, ⟨0, _⟩ => ⟨S8x128000, .f32⟩
  | .hbm, ⟨1, _⟩ => ⟨S128000x512, .f32⟩
  | .hbm, ⟨2, _⟩ => ⟨S8x128000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2x8x512, .f32⟩
  | .hbm, ⟨7, _⟩ => ⟨S1x8x512, .f32⟩
  | .hbm, ⟨8, _⟩ => ⟨S8x512, .f32⟩
  | .hbm, ⟨9, _⟩ => ⟨S1x8x512, .f32⟩
  | .hbm, ⟨10, _⟩ => ⟨S8x512, .f32⟩
  | .hbm, ⟨11, _⟩ => ⟨S8x512, .f32⟩
  | .hbm, ⟨12, _⟩ => ⟨S8x128000, .f32⟩
  | .hbm, ⟨13, _⟩ => ⟨S8x128000, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x128000, .f32⟩
  | .hbm, ⟨18, _⟩ => ⟨S8x128000, .f32⟩
  | .hbm, ⟨19, _⟩ => ⟨S_, .f32⟩
  | .hbm, ⟨20, _⟩ => ⟨S8x128000, .f32⟩
  | .hbm, ⟨21, _⟩ => ⟨S8x128000, .f32⟩
  | .hbm, ⟨22, _⟩ => ⟨S_, .f32⟩
  | .hbm, ⟨23, _⟩ => ⟨S_, .f32⟩
  | .hbm, ⟨24, _⟩ => ⟨S8x128000, .f32⟩
  | .hbm, ⟨25, _⟩ => ⟨S8x128000, .f32⟩
  | .hbm, ⟨26, _⟩ => ⟨S8x128000, .f32⟩
  | .hbm, ⟨27, _⟩ => ⟨S8x128000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x128000, .f32⟩
  | .hbm, ⟨32, _⟩ => ⟨S8x128000, .f32⟩
  | .hbm, ⟨33, _⟩ => ⟨S8x128000, .f32⟩
  | .hbm, ⟨34, _⟩ => ⟨S8x128000, .f32⟩
  | .local _ .vmem, ⟨0, _⟩ => ⟨S8x6400, .f32⟩
  | .local _ .vmem, ⟨1, _⟩ => ⟨S8x6400, .f32⟩
  | .local _ .vmem, ⟨2, _⟩ => ⟨S6400x512, .f32⟩
  | .local _ .vmem, ⟨3, _⟩ => ⟨S6400x512, .f32⟩
  | .local _ .vmem, ⟨4, _⟩ => ⟨S1x8x512, .f32⟩
  | .local _ .vmem, ⟨5, _⟩ => ⟨S1x8x512, .f32⟩
  | .local _ .vmem, ⟨6, _⟩ => ⟨S8x512, .f32⟩
  | .local _ .vmem, ⟨7, _⟩ => ⟨S6400x512, .f32⟩
  | .local _ .vmem, ⟨8, _⟩ => ⟨S6400x512, .f32⟩
  | .local _ .vmem, ⟨9, _⟩ => ⟨S8x6400, .f32⟩
  | .local _ .vmem, ⟨10, _⟩ => ⟨S8x6400, .f32⟩
  | _, _ => ⟨S8x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call2_v0 : Ref sig .tc := ⟨.hbm, 27, rfl⟩
abbrev main_call2_cst : Ref sig .tc := ⟨.hbm, 28, rfl⟩
abbrev main_call2_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S6400x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S8x128000_S_d0_1 : S8x128000.ReducesTo [0, 1] S_
  h_S_ : 0 < S_.numel
  inb_S1x8x512_S1x8x512_0_0_0 : ∀ a, (![0, 0, 0] : Fin 3 → Nat) a + S1x8x512.size a ≤ S1x8x512.size a
  h_S1x8x512 : 0 < S1x8x512.numel
  inb_S8x6400_S8x6400_0_0 : ∀ a, (![0, 0] : Fin 2 → Nat) a + S8x6400.size a ≤ S8x6400.size a
  h_S8x6400 : 0 < S8x6400.numel
  bitsLt_bf16_f32 : FTy.bits .bf16 < FTy.bits .f32
  inb_S6400x512_S6400x512_0_0 : ∀ a, (![0, 0] : Fin 2 → Nat) a + S6400x512.size a ≤ S6400x512.size a
  h_S6400x512 : 0 < S6400x512.numel
  shapeCasts_S1x8x512_S8x512 : S1x8x512.ShapeCasts S8x512
  shapeCasts_S8x512_S1x8x512 : S8x512.ShapeCasts S1x8x512
  slices_S2x8x512_S1x8x512_0_0_0 : S2x8x512.Slices ![0, 0, 0] S1x8x512
  slices_S2x8x512_S1x8x512_1_0_0 : S2x8x512.Slices ![1, 0, 0] S1x8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  bcast_S_S8x128000 : S_.BroadcastsInDim S8x128000 (![] : Fin 0 → Fin S8x128000.rank)
  dot_S8x6400_S6400x512_S8x512_1_0_0_1_n_n_wf : DotDims.WF S8x6400 S6400x512 S8x512 [1] [0] [0] [1] [] []
  dot_S8x512_S6400x512_S8x6400_1_1_0_0_n_n_wf : DotDims.WF S8x512 S6400x512 S8x6400 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x6400.size a ≤ S8x128000.size a
  hwx0_0 : ∀ i : grid0.Coords, EltTy.bits .f32 = 32 ∨ (Rect.block (s := S8x128000) S8x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x512.size a ≤ S128000x512.size a
  hwx0_1 : ∀ i : grid0.Coords, EltTy.bits .f32 = 32 ∨ (Rect.block (s := S128000x512) S6400x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512.size a ≤ S2x8x512.size a
  hwx0_2 : ∀ i : grid0.Coords, EltTy.bits .f32 = 32 ∨ (Rect.block (s := S2x8x512) S1x8x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x512.size a ≤ S8x512.size a
  hwx1_0 : ∀ i : grid1.Coords, EltTy.bits .f32 = 32 ∨ (Rect.block (s := S8x512) S8x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x512.size a ≤ S128000x512.size a
  hwx1_1 : ∀ i : grid1.Coords, EltTy.bits .f32 = 32 ∨ (Rect.block (s := S128000x512) S6400x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x6400.size a ≤ S8x128000.size a
  hwx1_2 : ∀ i : grid1.Coords, EltTy.bits .f32 = 32 ∨ (Rect.block (s := S8x128000) S8x6400.size (cc1_transform_2 i) (hinb1_2 i)).WholeWords (EltTy.packing .f32)

variable [Facts₀]

def dot_S8x6400_S6400x512_S8x512_1_0_0_1_n_n : DotDims S8x6400 S6400x512 S8x512 where
  lhsContracting := [1]
  rhsContracting := [0]
  lhsNonContracting := [0]
  rhsNonContracting := [1]
  lhsBatch := []
  rhsBatch := []
  wf := dot_S8x6400_S6400x512_S8x512_1_0_0_1_n_n_wf
def dot_S8x512_S6400x512_S8x6400_1_1_0_0_n_n : DotDims S8x512 S6400x512 S8x6400 where
  lhsContracting := [1]
  rhsContracting := [1]
  lhsNonContracting := [0]
  rhsNonContracting := [0]
  lhsBatch := []
  rhsBatch := []
  wf := dot_S8x512_S6400x512_S8x6400_1_1_0_0_n_n_wf

abbrev win0_0 : Pipeline.Window sig grid0 :=
  Pipeline.Window.ofSpec (Memref.whole main_arg0) S8x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S8x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S6400x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8x6400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x128000 : Shape := ⟨2, ![8, 128000]⟩
abbrev S128000x512 : Shape := ⟨2, ![128000, 512]⟩
abbrev S_ : Shape := ⟨0, ![]⟩
abbrev S8x512 : Shape := ⟨2, ![8, 512]⟩
abbrev S512x128000 : Shape := ⟨2, ![512, 128000]⟩

abbrev nBuf : Space → Nat
  | .hbm => 32
  | .vmem => 0
  | .smem => 0
  | _ => 0

abbrev bufTy : (tb : Table) → Fin (tcTables nBuf tb) → BufTy
  | .hbm, ⟨0, _⟩ => ⟨S8x128000, .f32⟩
  | .hbm, ⟨1, _⟩ => ⟨S128000x512, .f32⟩
  | .hbm, ⟨2, _⟩ => ⟨S8x128000, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x128000, .f32⟩
  | .hbm, ⟨7, _⟩ => ⟨S8x128000, .f32⟩
  | .hbm, ⟨8, _⟩ => ⟨S8x512, .f32⟩
  | .hbm, ⟨9, _⟩ => ⟨S512x128000, .f32⟩
  | .hbm, ⟨10, _⟩ => ⟨S8x128000, .f32⟩
  | .hbm, ⟨11, _⟩ => ⟨S8x128000, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x128000, .f32⟩
  | .hbm, ⟨16, _⟩ => ⟨S8x128000, .f32⟩
  | .hbm, ⟨17, _⟩ => ⟨S_, .f32⟩
  | .hbm, ⟨18, _⟩ => ⟨S8x128000, .f32⟩
  | .hbm, ⟨19, _⟩ => ⟨S8x128000, .f32⟩
  | .hbm, ⟨20, _⟩ => ⟨S_, .f32⟩
  | .hbm, ⟨21, _⟩ => ⟨S8x128000, .f32⟩
  | .hbm, ⟨22, _⟩ => ⟨S8x128000, .f32⟩
  | .hbm, ⟨23, _⟩ => ⟨S8x128000, .f32⟩
  | .hbm, ⟨24, _⟩ => ⟨S8x128000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x128000, .f32⟩
  | .hbm, ⟨29, _⟩ => ⟨S8x128000, .f32⟩
  | .hbm, ⟨30, _⟩ => ⟨S8x128000, .f32⟩
  | .hbm, ⟨31, _⟩ => ⟨S8x128000, .f32⟩
  | _, _ => ⟨S8x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  reducesTo_S8x128000_S_d0_1 : S8x128000.ReducesTo [0, 1] S_
  h_S_ : 0 < S_.numel
  bcast_S_S8x128000 : S_.BroadcastsInDim S8x128000 (![] : Fin 0 → Fin S8x128000.rank)
  transposes_S128000x512_S512x128000_1_0 : S128000x512.Transposes [1, 0] S512x128000
  dot_S8x128000_S128000x512_S8x512_1_0_0_1_n_n_wf : DotDims.WF S8x128000 S128000x512 S8x512 [1] [0] [0] [1] [] []
  dot_S8x512_S512x128000_S8x128000_1_0_0_1_n_n_wf : DotDims.WF S8x512 S512x128000 S8x128000 [1] [0] [0] [1] [] []

variable [Facts₀]

def dot_S8x128000_S128000x512_S8x512_1_0_0_1_n_n : DotDims S8x128000 S128000x512 S8x512 where
  lhsContracting := [1]
  rhsContracting := [0]
  lhsNonContracting := [0]
  rhsNonContracting := [1]
  lhsBatch := []
  rhsBatch := []
  wf := dot_S8x128000_S128000x512_S8x512_1_0_0_1_n_n_wf
def dot_S8x512_S512x128000_S8x128000_1_0_0_1_n_n : DotDims S8x512 S512x128000 S8x128000 where
  lhsContracting := [1]
  rhsContracting := [0]
  lhsNonContracting := [0]
  rhsNonContracting := [1]
  lhsBatch := []
  rhsBatch := []
  wf := dot_S8x512_S512x128000_S8x128000_1_0_0_1_n_n_wf

class Facts : Prop extends Facts₀ where

variable [Facts]
-- ==== Proof.DownCases.lean ====
/-
  Region 0 (the projection `L · W`, accumulated tile by tile): what the body leaves in the output block in each of
  its two cases, as ONE payload. At the first tile of a core's run the body stores the zero block, reads it back and
  leaves `0 + x·w`; at every other tile it leaves `acc + x·w` over the block `acc` the tile before left.
-/
import proofs.«155375_j38689065402635_2_alg».proof.Proof.Gen.KernelIdeal.Frame
import Idealize.ShloMosaic.Lib.Pipeline.Value
import Idealize.ShloMosaic.Lib.Tactic

set_option maxRecDepth 16384

noncomputable section

namespace Cert.KernelIdeal.Down

open Cert.KernelIdeal Cert.KernelIdeal.Gen
open Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile: over the block `xo` the tile before left, the body leaves its one store's payload of the two input
    blocks and `xo`. -/
theorem out_B (c : Dev nD) (i : grid0.Coords) (a2 : Memref sig .tc .vmem S8x6400 .f32) (h2 : a2.IsWhole)
    (a3 : Memref sig .tc .vmem S6400x512 .f32) (h3 : a3.IsWhole) (a4 : Memref sig .tc .vmem S1x8x512 .f32) (h4 : a4.IsWhole)
    (hc : ¬cond0_0 i) (x0 : Vec F S8x6400 .f32) (x1 : Vec F S6400x512 .f32) (xo : Vec F S1x8x512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S8x6400) hz2,
    View.ld_unit_zero (S := S6400x512) hz2, View.ld_unit_zero (S := S1x8x512) hz3]

/-- The first tile of a core's run: the body stores the zero block `k0_pay1`, reads it back, and leaves the payload
    of the two input blocks and that zero block. -/
theorem out_A (c : Dev nD) (i : grid0.Coords) (a2 : Memref sig .tc .vmem S8x6400 .f32) (h2 : a2.IsWhole)
    (a3 : Memref sig .tc .vmem S6400x512 .f32) (h3 : a3.IsWhole) (a4 : Memref sig .tc .vmem S1x8x512 .f32) (h4 : a4.IsWhole)
    (hc : cond0_0 i) (x0 : Vec F S8x6400 .f32) (x1 : Vec F S6400x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x512) hz3, View.readCov_unit_zero (S := S1x8x512) _ hz3]
  simp only [View.readAt_eq_ld, h2.read_unread, h3.read_unread, View.ld_unit_zero (S := S8x6400) hz2,
    View.ld_unit_zero (S := S6400x512) hz2]

end Cert.KernelIdeal.Down

end
-- ==== Proof.DownPayload.lean ====
/-
  Region 0's payload at an index, over the extended reals: the block the body stores is, at row `b` and column `r`,
  the accumulator's entry plus the product of the two input tiles there, `acc(0,b,r) + ∑ⱼ x(b,j) · w(j,r)` — the
  changes of float format are the identity, the matrix unit's product into a zero accumulator is the plain sum, and
  the two shape casts only add and drop the leading unit axis. The zero block is zero everywhere.
-/
import proofs.«155375_j38689065402635_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Down

open Cert.KernelIdeal Cert.KernelIdeal.Gen
open Idealize.ShloMosaic Idealize.ShloMosaic.ValueIdx

/-- The tile product's dimension record: the first operand's columns contract with the second's rows. -/
abbrev dDown : DotDims S8x6400 S6400x512 S8x512 := dot_S8x6400_S6400x512_S8x512_1_0_0_1_n_n

theorem lhsDown_0 (i : S8x512.Idx) (q : dDown.contr.Idx) : (dDown.lhsIdx i q 0).val = (i 0).val := by
  unfold DotDims.lhsIdx
  rw [dif_neg (show ¬(0 : Fin S8x6400.rank) ∈ dDown.lhsBatch by decide),
    dif_pos (show (0 : Fin S8x6400.rank) ∈ dDown.lhsNonContracting by decide)]
  rfl
theorem lhsDown_1 (i : S8x512.Idx) (q : dDown.contr.Idx) : (dDown.lhsIdx i q 1).val = (q ⟨0, by decide⟩).val :=
  dDown.lhsIdx_val_of_single rfl i q
theorem rhsDown_0 (i : S8x512.Idx) (q : dDown.contr.Idx) : (dDown.rhsIdx i q 0).val = (q ⟨0, by decide⟩).val :=
  dDown.rhsIdx_val_of_single rfl i q
theorem rhsDown_1 (i : S8x512.Idx) (q : dDown.contr.Idx) : (dDown.rhsIdx i q 1).val = (i 1).val := by
  unfold DotDims.rhsIdx
  rw [dif_neg (show ¬(1 : Fin S6400x512.rank) ∈ dDown.rhsBatch by decide),
    dif_pos (show (1 : Fin S6400x512.rank) ∈ dDown.rhsNonContracting by decide)]
  rfl

/-- The tile product at row `b`, column `r`: the sum over the tile's 6400 entries. -/
theorem matmulDown_apply (x0 : FVec Ideal S8x6400 .bf16) (x1 : FVec Ideal S6400x512 .bf16) (b : Fin 8) (r : Fin 512) :
    matmul dDown none x0 x1 (constant S8x512 .f32 0x00000000#32) (ix2 b r) = ∑ j : Fin 6400, x0 (ix2 b j) * x1 (ix2 j r) := by
  refine (Ideal.matmul_constant_zero_apply dDown none x0 x1 (ix2 b r)).trans ?_
  rw [← Equiv.sum_comp (ValueIdx.contrEquiv1 dDown 6400 rfl rfl).symm]
  refine Finset.sum_congr rfl fun k _ => ?_
  have hk := ValueIdx.contrEquiv1_symm_val dDown 6400 rfl rfl k
  have el : dDown.lhsIdx (ix2 b r) ((ValueIdx.contrEquiv1 dDown 6400 rfl rfl).symm k) = ix2 b k := funext fun a => Fin.ext (by
    match a with
    | ⟨0, _⟩ => exact lhsDown_0 _ _
    | ⟨1, _⟩ => exact (lhsDown_1 _ _).trans hk)
  have er : dDown.rhsIdx (ix2 b r) ((ValueIdx.contrEquiv1 dDown 6400 rfl rfl).symm k) = ix2 k r := funext fun a => Fin.ext (by
    match a with
    | ⟨0, _⟩ => exact (rhsDown_0 _ _).trans hk
    | ⟨1, _⟩ => exact rhsDown_1 _ _)
  rw [el, er]

/-- The stored block at `(0, b, r)`: the accumulator there plus the tile product. -/
theorem pay2_apply (x0 : Vec Ideal S8x6400 .f32) (x1 : Vec Ideal S6400x512 .f32) (acc : Vec Ideal S1x8x512 .f32)
    (b : Fin 8) (r : Fin 512) :
    k0_pay2 (F := Ideal) x0 x1 acc (ix3 (0 : Fin 1) b r)
      = acc (ix3 (0 : Fin 1) b r) + ∑ j : Fin 6400, x0 (ix2 b j) * x1 (ix2 j r) := by
  unfold k0_pay2
  refine (shapeCast_addUnit_apply ![8, 512] _ _ (ix3 (0 : Fin 1) b r)).trans ?_
  have e2 : (fun a : Fin 2 => (ix3 (0 : Fin 1) b r) a.succ) = ix2 b r := funext fun a => by
    match a with
    | ⟨0, _⟩ => rfl
    | ⟨1, _⟩ => rfl
  rw [e2]
  refine (addf_apply _ _ (ix2 b r)).trans ?_
  have ec : (Fin.cons ⟨0, Nat.one_pos⟩ (ix2 b r) : S1x8x512.Idx) = ix3 (0 : Fin 1) b r := funext fun a => by
    match a with
    | ⟨0, _⟩ => rfl
    | ⟨1, _⟩ => rfl
    | ⟨2, _⟩ => rfl
  rw [shapeCast_dropUnit_apply ![8, 512] acc _ (ix2 b r), ec]
  exact congrArg (acc (ix3 (0 : Fin 1) b r) + ·) (matmulDown_apply _ _ b r)

/-- The zero block is zero at every index. -/
theorem pay1_apply (i : S1x8x512.Idx) : k0_pay1 (F := Ideal) i = 0 := by
  unfold k0_pay1
  show Ideal.ofBits .f32 0x00000000#32 = 0
  exact Ideal.ofBits_zero_f32

end Cert.KernelIdeal.Down

end
-- ==== Proof.DownAcc.lean ====
/-
  Region 0, point by point: the output block after tile `t` of a core's run is the sum of the tile products of the
  run so far. The two argument arrays are read through the windows' blocks: tile `n` of `L` is its columns
  `6400·n … 6400·n + 6399`, tile `n` of `W` the same rows, so a tile product is a stretch of the one long sum
  `∑ᵥ L(b,v) · W(v,r)`; to name the stretches without carrying bounds the arrays are extended by zero past their
  128000 columns / rows.
-/
import proofs.«155375_j38689065402635_2_alg».proof.Proof.DownCases
import proofs.«155375_j38689065402635_2_alg».proof.Proof.DownPayload

set_option maxRecDepth 16384

noncomputable section

namespace Cert.KernelIdeal.Down

open Cert.KernelIdeal Cert.KernelIdeal.Gen
open Idealize.ShloMosaic Idealize.ShloMosaic.TcCoe Idealize.SL.Sem Idealize.ShloMosaic.ValueIdx
open Idealize.ShloMosaic.Pipeline (Dat)

/-- `L` at row `b`, column `v`, zero past the last column. -/
def Ln (L : S8x128000.Idx → EReal) (b : Fin 8) (v : ℕ) : EReal := if h : v < 128000 then L (ix2 b ⟨v, h⟩) else 0
/-- `W` at row `v`, column `r`, zero past the last row. -/
def Wn (W : S128000x512.Idx → EReal) (v : ℕ) (r : Fin 512) : EReal := if h : v < 128000 then W (ix2 ⟨v, h⟩ r) else 0
/-- Tile `n`'s product at `(b, r)`: the stretch `6400·n … 6400·n + 6399` of the long sum. -/
def tile (L : S8x128000.Idx → EReal) (W : S128000x512.Idx → EReal) (n : ℕ) (b : Fin 8) (r : Fin 512) : EReal :=
  ∑ j ∈ Finset.range 6400, Ln L b (6400 * n + j) * Wn W (6400 * n + j) r

variable (V : (c : Dev nD) → (b : Ref sig .tc) → Buf (Elt Ideal) ((c : Thread nD τ).loc b))

/-- The printed index maps, decided over the grid: point `t` reads tile `t` of both arguments and writes block `t / 10`. -/
theorem idx0 : ∀ t : Fin cfg0.N, win0_0.index t (0 : Fin 2) = 0 ∧ win0_0.index t (1 : Fin 2) = t.val
    ∧ win0_1.index t (0 : Fin 2) = t.val ∧ win0_1.index t (1 : Fin 2) = 0
    ∧ win0_2.index t (0 : Fin 3) = t.val / 10 ∧ win0_2.index t (1 : Fin 3) = 0 ∧ win0_2.index t (2 : Fin 3) = 0 :=
  (by decide +kernel : ∀ t : Fin grid0.N, _)

/-- The first window's block at point `t` is tile `t` of the first argument. -/
theorem iblk0_0_apply (c : Dev nD) (t : Fin cfg0.N) (b : Fin 8) (j : Fin 6400) :
    (iblk0 V c 0 t : Vec Ideal S8x6400 .f32) (ix2 b j) = Ln (V c main_arg0) b (6400 * t.val + j.val) := by
  have ht : t.val < 20 := lt_of_lt_of_eq t.isLt N_0
  have hj : j.val < 6400 := j.isLt
  unfold Ln
  rw [dif_pos (by omega)]
  obtain ⟨e0, e1, -⟩ := idx0 t
  show V c main_arg0 (((cfg0.win 0).blk t).view.emb (ix2 b j)) = V c main_arg0 (ix2 b ⟨6400 * t.val + j.val, _⟩)
  refine congrArg (V c main_arg0) (funext fun a => Fin.ext ?_)
  match a with
  | ⟨0, _⟩ => show win0_0.index t (0 : Fin 2) * 8 + 1 * b.val = b.val; omega
  | ⟨1, _⟩ => show win0_0.index t (1 : Fin 2) * 6400 + 1 * j.val = 6400 * t.val + j.val; omega

/-- The second window's block at point `t` is tile `t` of the second argument. -/
theorem iblk0_1_apply (c : Dev nD) (t : Fin cfg0.N) (j : Fin 6400) (r : Fin 512) :
    (iblk0 V c 1 t : Vec Ideal S6400x512 .f32) (ix2 j r) = Wn (V c main_arg1) (6400 * t.val + j.val) r := by
  have ht : t.val < 20 := lt_of_lt_of_eq t.isLt N_0
  have hj : j.val < 6400 := j.isLt
  unfold Wn
  rw [dif_pos (by omega)]
  obtain ⟨-, -, e2, e3, -⟩ := idx0 t
  show V c main_arg1 (((cfg0.win 1).blk t).view.emb (ix2 j r)) = V c main_arg1 (ix2 ⟨6400 * t.val + j.val, _⟩ r)
  refine congrArg (V c main_arg1) (funext fun a => Fin.ext ?_)
  match a with
  | ⟨0, _⟩ => show win0_1.index t (0 : Fin 2) * 6400 + 1 * j.val = 6400 * t.val + j.val; omega
  | ⟨1, _⟩ => show win0_1.index t (1 : Fin 2) * 512 + 1 * r.val = r.val; omega

/-- Tile `n`'s product at an index of the output block. -/
def tileAt (c : Dev nD) (n : ℕ) (i : S1x8x512.Idx) : EReal := tile (V c main_arg0) (V c main_arg1) n (i 1) (i 2)

/-- The body's payload at point `n`, over any accumulator: the accumulator plus tile `n`'s product. -/
theorem pay2_tile (c : Dev nD) (n : ℕ) (h : n < cfg0.N) (acc : Vec Ideal S1x8x512 .f32) (i : S1x8x512.Idx) :
    k0_pay2 (F := Ideal) (iblk0 V c 0 ⟨n, h⟩) (iblk0 V c 1 ⟨n, h⟩) acc i = acc i + tileAt V c n i := by
  obtain ⟨b, r, rfl⟩ : ∃ (b : Fin 8) (r : Fin 512), i = ix3 (0 : Fin 1) b r :=
    ⟨i 1, i 2, (eq_ix3 i).trans (by rw [Fin.fin_one_eq_zero (i 0)]; rfl)⟩
  refine (pay2_apply (iblk0 V c 0 ⟨n, h⟩) (iblk0 V c 1 ⟨n, h⟩) acc b r).trans ?_
  refine congrArg (acc (ix3 (0 : Fin 1) b r) + ·) ?_
  show _ = tile (V c main_arg0) (V c main_arg1) n b r
  unfold tile
  rw [Finset.sum_range]
  refine Finset.sum_congr rfl fun j _ => ?_
  rw [iblk0_0_apply V c ⟨n, h⟩ b j, iblk0_1_apply V c ⟨n, h⟩ j r]

/-- The reset value at the first tile of a run, and the step at every later tile, as functions of the point. -/
def aF (c : Dev nD) : (n : ℕ) → n < cfg0.N → S1x8x512.Idx → EReal :=
  fun n h => k0_pay2 (F := Ideal) (iblk0 V c 0 ⟨n, h⟩) (iblk0 V c 1 ⟨n, h⟩) (k0_pay1 (F := Ideal))
def gF (c : Dev nD) : (n : ℕ) → n < cfg0.N → (S1x8x512.Idx → EReal) → S1x8x512.Idx → EReal :=
  fun n h acc => k0_pay2 (F := Ideal) (iblk0 V c 0 ⟨n, h⟩) (iblk0 V c 1 ⟨n, h⟩) acc

theorem outs_reset (c : Dev nD) (n : ℕ) (h : n < cfg0.N) (h0 : n % 10 = 0) : outsAt0 V c n h = aF V c n h :=
  (outsAt0_A V c ⟨n, h⟩ h0).trans
    (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      ((hcond0_0 ⟨n, h⟩).mpr h0) (iblk0 V c 0 ⟨n, h⟩) (iblk0 V c 1 ⟨n, h⟩))

theorem outs_step (c : Dev nD) (n : ℕ) (h : n + 1 < cfg0.N) (h0 : ¬(n + 1) % 10 = 0) :
    outsAt0 V c (n + 1) h = gF V c (n + 1) h (outsAt0 V c n (Nat.lt_of_succ_lt h)) :=
  (outsAt0_B V c ⟨n + 1, h⟩ h0).trans
    (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (fun hh => h0 ((hcond0_0 ⟨n + 1, h⟩).mp hh)) (iblk0 V c 0 ⟨n + 1, h⟩) (iblk0 V c 1 ⟨n + 1, h⟩) (outsAt0 V c n (Nat.lt_of_succ_lt h)))

/-- THE RUNNING SUM: after point `t` the output block holds the tile products of its run so far — the run of point
    `t` starts at `10·(t / 10)` and `t` is its tile `t % 10`. -/
theorem outsAt_closed (c : Dev nD) (t : Fin cfg0.N) (i : S1x8x512.Idx) :
    outsAt0 V c t.val t.isLt i = 0 + ∑ s ∈ Finset.range (t.val % 10 + 1), tileAt V c (10 * (t.val / 10) + s) i := by
  have hN : cfg0.N = 20 := N_0
  have h' : 10 * (t.val / 10) + t.val % 10 < cfg0.N := by rw [Nat.div_add_mod]; exact t.isLt
  rw [Pipeline.eq_accAt_of_mod (fun n h => outsAt0 V c n h) 10 (aF V c) (gF V c) (outs_reset V c) (outs_step V c)
    (by decide) t.val t.isLt h']
  refine Pipeline.accAt_add_apply (aF V c) (gF V c) (fun _ => (0 : EReal)) (fun n i => tileAt V c n i) (10 * (t.val / 10)) 9
    (fun h i => ?_) (fun n h acc i _ _ => ?_) (t.val % 10) (by omega) h' i
  · show k0_pay2 (F := Ideal) _ _ _ i = _
    rw [pay2_tile V c _ h _ i, pay1_apply]
  · exact pay2_tile V c n h acc i

end Cert.KernelIdeal.Down

end
-- ==== Proof.NormAlgebra.lean ====
/-
  Sums, Frobenius norms and scalings over the extended reals: the laws that join the two programs.

  Both programs compute, from a matrix `L` (rows `b`, columns `v`) and a matrix `W` (rows `v`, columns `r`),
    l   = ‖L‖                      (the square root of the sum of all squares),
    Y   = a low-rank image of L    (through W and back through its transpose),
    P   = c₇ · Y/‖Y‖ + (a multiple c₃/l of L),
    out = P/‖P‖ · l.
  One program forms `Y` from `L` itself and scales `L` by the quotient `c₃ / l`; the other divides `L` by `l` first
  and forms `Y` from the quotient. Over the reals, with `l ≠ 0`, the second `Y` is the first divided by `l`, and a
  positive factor cancels in `Y/‖Y‖`; with `l = 0` both results are the zero matrix, whatever `P` is, because the
  last step multiplies by `l` and `x · 0 = 0` for every extended real `x`.
-/
import Idealize.ShloMosaic.PureOps.Ideal
import Idealize.ShloMosaic.PureOps.Ideal.Laws

noncomputable section

namespace Cert.NormAlgebra

open Idealize.ShloMosaic

variable {J : Type} [Fintype J]

/-- The Frobenius norm as both programs compute it: the square root of `z` plus the sum of all squares. -/
def nrm (z : EReal) (X : J → EReal) : EReal := Ideal.sqrt (z + ∑ j, X j * X j)

/-- The blend with the quotient `c₃ / l` taken first, then multiplied onto `L`. -/
def blendK (z c7 c3 : EReal) (L Y : J → EReal) : J → EReal :=
  fun j => c7 * Ideal.div (Y j) (nrm z Y) + Ideal.div c3 (nrm z L) * L j

/-- The blend with `L` divided by `l` first, then multiplied by `c₃`. -/
def blendR (z c7 c3 : EReal) (L Y : J → EReal) : J → EReal :=
  fun j => c7 * Ideal.div (Y j) (nrm z Y) + c3 * Ideal.div (L j) (nrm z L)

/-- The last step: normalize `P` and scale it back to the norm `l`. -/
def rescale (z l : EReal) (P : J → EReal) : J → EReal :=
  fun j => Ideal.div (P j) (nrm z P) * l

/-- The coercion of a finite real sum is the sum of the coercions. -/
private theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The norm of a real matrix is the real square root of its sum of squares. -/
theorem nrm_coe (Lr : J → ℝ) :
    nrm 0 (fun j => (Lr j : EReal)) = ((Real.sqrt (∑ j, Lr j * Lr j) : ℝ) : EReal) := by
  have h : (0 : EReal) + ∑ j, (Lr j : EReal) * (Lr j : EReal) = ((∑ j, Lr j * Lr j : ℝ) : EReal) := by
    rw [zero_add, coe_sum]
    refine Finset.sum_congr rfl (fun j _ => ?_)
    rw [EReal.coe_mul]
  unfold nrm
  rw [h, Ideal.sqrt_coe, if_neg]
  exact not_lt.mpr (Finset.sum_nonneg (fun j _ => mul_self_nonneg (Lr j)))

/-- Dividing every entry by a positive real divides the norm by it. -/
private theorem sqrt_sum_div (y : J → ℝ) (lr : ℝ) (hpos : 0 < lr) :
    Real.sqrt (∑ j, (y j / lr) * (y j / lr)) = Real.sqrt (∑ j, y j * y j) / lr := by
  have h : ∑ j, (y j / lr) * (y j / lr) = (∑ j, y j * y j) / (lr * lr) := by
    rw [Finset.sum_div]
    refine Finset.sum_congr rfl (fun j _ => ?_)
    rw [div_mul_div_comm]
  rw [h, Real.sqrt_div' _ (mul_self_nonneg lr), Real.sqrt_mul_self hpos.le]

/-- The normalized matrix is unchanged when every entry is first divided by a positive real. -/
private theorem div_nrm_scaled (y : J → ℝ) (lr : ℝ) (hpos : 0 < lr) (j : J) :
    Ideal.div ((y j : ℝ) : EReal) (nrm 0 (fun j => (y j : EReal)))
      = Ideal.div ((y j / lr : ℝ) : EReal) (nrm 0 (fun j => ((y j / lr : ℝ) : EReal))) := by
  rw [nrm_coe y, nrm_coe (fun j => y j / lr), sqrt_sum_div y lr hpos]
  by_cases hs : Real.sqrt (∑ j, y j * y j) = 0
  · have hsum : ∑ j, y j * y j = 0 :=
      (Real.sqrt_eq_zero (Finset.sum_nonneg (fun j _ => mul_self_nonneg (y j)))).mp hs
    have hy : y j = 0 :=
      mul_self_eq_zero.mp
        ((Finset.sum_eq_zero_iff_of_nonneg (fun j _ => mul_self_nonneg (y j))).mp hsum j (Finset.mem_univ j))
    rw [hs, hy, zero_div]
  · have hne : Real.sqrt (∑ j, y j * y j) / lr ≠ 0 := div_ne_zero hs hpos.ne'
    rw [Ideal.div_coe hs, Ideal.div_coe hne, ← EReal.coe_mul, ← EReal.coe_mul]
    congr 1
    field_simp

/-- The two programs' results agree: `L` real; `Yk` real; `Yr` is `Yk` divided by the norm of `L` whenever that norm
    is not zero (when it is zero nothing is asked of `Yr`: both results are zero). -/
theorem final_eq (z c7 c3 : EReal) (hz : z = 0) (L Yk Yr : J → EReal) (Lr : J → ℝ) (hL : ∀ j, L j = (Lr j : EReal))
    (y : J → ℝ) (hYk : ∀ j, Yk j = (y j : EReal))
    (hYr : Real.sqrt (∑ j, Lr j * Lr j) ≠ 0 → ∀ j, Yr j = ((y j / Real.sqrt (∑ j, Lr j * Lr j) : ℝ) : EReal)) :
    rescale z (nrm z L) (blendK z c7 c3 L Yk) = rescale z (nrm z L) (blendR z c7 c3 L Yr) := by
  subst hz
  have hL' : L = fun j => (Lr j : EReal) := funext hL
  have hYk' : Yk = fun j => (y j : EReal) := funext hYk
  subst hL' hYk'
  have hn : nrm 0 (fun j => (Lr j : EReal)) = ((Real.sqrt (∑ j, Lr j * Lr j) : ℝ) : EReal) := nrm_coe Lr
  by_cases h0 : Real.sqrt (∑ j, Lr j * Lr j) = 0
  · funext j
    simp only [rescale, hn, h0, EReal.coe_zero, mul_zero]
  · have hpos : 0 < Real.sqrt (∑ j, Lr j * Lr j) := lt_of_le_of_ne (Real.sqrt_nonneg _) (Ne.symm h0)
    have hYr' : Yr = fun j => ((y j / Real.sqrt (∑ j, Lr j * Lr j) : ℝ) : EReal) := funext (hYr h0)
    subst hYr'
    have key : blendK 0 c7 c3 (fun j => (Lr j : EReal)) (fun j => (y j : EReal))
        = blendR 0 c7 c3 (fun j => (Lr j : EReal))
            (fun j => ((y j / Real.sqrt (∑ j, Lr j * Lr j) : ℝ) : EReal)) := by
      funext j
      simp only [blendK, blendR]
      rw [hn, div_nrm_scaled y _ hpos j, Ideal.div_coe h0, Ideal.div_coe h0, mul_assoc,
        mul_comm (((1 / Real.sqrt (∑ j, Lr j * Lr j) : ℝ)) : EReal)]
    rw [key]

variable {ι κ ρ : Type} [Fintype ι] [Fintype κ] [Fintype ρ]

/-- A product of two real matrix products, computed over the extended reals, is the real one. -/
theorem up_down_real (Lr : ι → κ → ℝ) (Wr : κ → ρ → ℝ) (b : ι) (v : κ) :
    ∑ r, (∑ v', (Lr b v' : EReal) * (Wr v' r : EReal)) * (Wr v r : EReal)
      = ((∑ r, (∑ v', Lr b v' * Wr v' r) * Wr v r : ℝ) : EReal) := by
  rw [coe_sum]
  refine Finset.sum_congr rfl (fun r _ => ?_)
  rw [EReal.coe_mul, coe_sum]
  simp only [EReal.coe_mul]

/-- The same with every entry of the first factor divided by a nonzero real `lr` first: the result is divided by `lr`. -/
theorem up_down_scaled (Lr : ι → κ → ℝ) (Wr : κ → ρ → ℝ) (lr : ℝ) (hl : lr ≠ 0) (b : ι) (v : κ) :
    ∑ r, (∑ v', Ideal.div (Lr b v' : EReal) (lr : EReal) * (Wr v' r : EReal)) * (Wr v r : EReal)
      = (((∑ r, (∑ v', Lr b v' * Wr v' r) * Wr v r) / lr : ℝ) : EReal) := by
  have h : ∀ x : ℝ, Ideal.div (x : EReal) (lr : EReal) = ((x / lr : ℝ) : EReal) := by
    intro x
    rw [Ideal.div_coe hl, ← EReal.coe_mul, mul_one_div]
  simp only [h]
  refine (up_down_real (fun b v => Lr b v / lr) Wr b v).trans ?_
  congr 1
  rw [Finset.sum_div]
  refine Finset.sum_congr rfl (fun r _ => ?_)
  have h1 : ∑ v', Lr b v' / lr * Wr v' r = (∑ v', Lr b v' * Wr v' r) / lr := by
    rw [Finset.sum_div]
    refine Finset.sum_congr rfl (fun v' _ => ?_)
    ring
  rw [h1]
  ring

/-- A sum over `T` consecutive tiles of `n` entries each is the sum over all `T · n` entries. -/
theorem sum_tiles {M : Type} [AddCommMonoid M] (T n : ℕ) (f : ℕ → M) :
    ∑ t ∈ Finset.range T, ∑ j ∈ Finset.range n, f (n * t + j) = ∑ v ∈ Finset.range (T * n), f v := by
  induction T with
  | zero => simp
  | succ T ih =>
    rw [Finset.sum_range_succ, ih, add_one_mul, Finset.sum_range_add, Nat.mul_comm n T]

end Cert.NormAlgebra

end
-- ==== Proof.Spec.lean ====
/-
  The two programs' results as functions of the argument arrays `L` (8 × 128000) and `W` (128000 × 512), index by index
  over the extended reals.

    down L W b r = ∑ᵥ L(b,v) · W(v,r)                     the projection onto the 512 columns of W
    upK  L W     = (b,v) ↦ ∑ᵣ down(b,r) · W(v,r)            and back through W's transpose
    upR  L W     = the same with every L(b,v) divided by ‖L‖ before the first product
    outK L W     = rescale ‖L‖ (blendK L (upK L W))         the kernel program's result
    outR L W     = rescale ‖L‖ (blendR L (upR L W))         the reference program's result

  with the norm, the two blends and the rescaling of `NormAlgebra`, the norm's sum started from the f32 zero `z0`
  and the two blend coefficients the f32 words `c7` (0.7) and `c3` (0.3), never evaluated: both programs spell the
  same words.
-/
import proofs.«155375_j38689065402635_2_alg».proof.Proof.NormAlgebra
import Idealize.ShloMosaic.Lib.ValueIdx

noncomputable section

namespace Cert.Spec

open Idealize.ShloMosaic Idealize.ShloMosaic.ValueIdx Cert.NormAlgebra

/-- The shape of `L` and of the result. -/
abbrev SL : Shape := ⟨2, ![8, 128000]⟩
/-- The shape of `W`. -/
abbrev SW : Shape := ⟨2, ![128000, 512]⟩

/-- The f32 zero the norms' sums start from. -/
abbrev z0 : EReal := Ideal.ofBits .f32 0x00000000#32
/-- The coefficient of the normalized low-rank image (the f32 word of 0.7). -/
abbrev c7 : EReal := Ideal.ofBits .f32 0x3F333333#32
/-- The coefficient of the normalized input (the f32 word of 0.3). -/
abbrev c3 : EReal := Ideal.ofBits .f32 0x3E99999A#32

/-- `L · W` at row `b`, column `r`. -/
def down (L : SL.Idx → EReal) (W : SW.Idx → EReal) (b : Fin 8) (r : Fin 512) : EReal :=
  ∑ v : Fin 128000, L (ix2 b v) * W (ix2 v r)

/-- `(L · W) · Wᵀ` at row `b`, column `v`. -/
def upKAt (L : SL.Idx → EReal) (W : SW.Idx → EReal) (b : Fin 8) (v : Fin 128000) : EReal :=
  ∑ r : Fin 512, down L W b r * W (ix2 v r)

/-- `((L / ‖L‖) · W) · Wᵀ` at row `b`, column `v`. -/
def upRAt (L : SL.Idx → EReal) (W : SW.Idx → EReal) (b : Fin 8) (v : Fin 128000) : EReal :=
  ∑ r : Fin 512, (∑ v' : Fin 128000, Ideal.div (L (ix2 b v')) (nrm z0 L) * W (ix2 v' r)) * W (ix2 v r)

/-- The kernel program's low-rank image, as an array. -/
def upK (L : SL.Idx → EReal) (W : SW.Idx → EReal) : SL.Idx → EReal := fun i => upKAt L W (i 0) (i 1)
/-- The reference program's low-rank image, as an array. -/
def upR (L : SL.Idx → EReal) (W : SW.Idx → EReal) : SL.Idx → EReal := fun i => upRAt L W (i 0) (i 1)

/-- The kernel program's result. -/
def outK (L : SL.Idx → EReal) (W : SW.Idx → EReal) : SL.Idx → EReal :=
  rescale z0 (nrm z0 L) (blendK z0 c7 c3 L (upK L W))
/-- The reference program's result. -/
def outR (L : SL.Idx → EReal) (W : SW.Idx → EReal) : SL.Idx → EReal :=
  rescale z0 (nrm z0 L) (blendR z0 c7 c3 L (upR L W))

end Cert.Spec

end
-- ==== Proof.DownFinal.lean ====
/-
  Region 0, from blocks to the array: each core's block is written back once, after the last tile of its run, holding
  the sum of the run's ten tile products; the two blocks fill the [2, 8, 512] array. Adding the two blocks entry by
  entry (what the host does next) gives all twenty tile products, which is the one long sum `∑ᵥ L(b,v) · W(v,r)`.
-/
import proofs.«155375_j38689065402635_2_alg».proof.Proof.DownAcc
import proofs.«155375_j38689065402635_2_alg».proof.Proof.Spec

set_option maxRecDepth 16384

noncomputable section

namespace Cert.KernelIdeal.Down

open Cert.KernelIdeal Cert.KernelIdeal.Gen
open Idealize.ShloMosaic Idealize.ShloMosaic.TcCoe Idealize.SL.Sem Idealize.ShloMosaic.ValueIdx
open Idealize.ShloMosaic.Pipeline (Dat)

/-- The two partial projections: block `q` holds the ten tile products of the run `10·q … 10·q + 9`. -/
def partials (L : S8x128000.Idx → EReal) (W : S128000x512.Idx → EReal) : S2x8x512.Idx → EReal :=
  fun i => ∑ s ∈ Finset.range 10, tile L W (10 * (i 0).val + s) (i 1) (i 2)

theorem tile_congr (L : S8x128000.Idx → EReal) (W : S128000x512.Idx → EReal) {n n' : ℕ} {b b' : Fin 8} {r r' : Fin 512}
    (hn : n = n') (hb : b.val = b'.val) (hr : r.val = r'.val) : tile L W n b r = tile L W n' b' r' := by
  subst hn; rw [Fin.ext hb, Fin.ext hr]

variable (V : (c : Dev nD) → (b : Ref sig .tc) → Buf (Elt Ideal) ((c : Thread nD τ).loc b))

/-- What a writing point writes back is its block of `partials`. -/
theorem flushed_eq (c : Dev nD) (t : Fin cfg0.N) (hf : (cfg0.win 2).flush t = true) :
    (dat0 V c).flushed 2 t = ((cfg0.win 2).blk t).view.read (Elt Ideal) (partials (V c main_arg0) (V c main_arg1)) := by
  have h9 : t.val % 10 = 9 := (flush0_2 t).mp hf
  show (cfg0.win 2).cut (grid0.coords t) ((dat0 V c).after 2 t) = _
  rw [after0_2]
  funext y
  show outsAt0 V c t.val t.isLt y = partials (V c main_arg0) (V c main_arg1) (((cfg0.win 2).blk t).view.emb y)
  rw [outsAt_closed V c t y, h9, zero_add]
  unfold partials tileAt
  obtain ⟨-, -, -, -, e4, e5, e6⟩ := idx0 t
  have y0 : (y 0).val < 1 := (y 0).isLt
  refine Finset.sum_congr rfl fun s _ => (tile_congr _ _ ?_ ?_ ?_).symm
  · show 10 * (win0_2.index t (0 : Fin 3) * 1 + 1 * (y 0).val) + s = 10 * (t.val / 10) + s
    omega
  · show win0_2.index t (1 : Fin 3) * 8 + 1 * (y 1).val = (y 1).val
    omega
  · show win0_2.index t (2 : Fin 3) * 512 + 1 * (y 2).val = (y 2).val
    omega

/-- An index of the array is in point `t`'s block iff each coordinate is in the block's range on its axis. -/
theorem mem_blk (t : Fin cfg0.N) (i : S2x8x512.Idx) :
    i ∈ ((cfg0.win 2).blk t).view.set ↔ ∀ a : Fin 3, win0_2.index t a * S1x8x512.size a ≤ (i a).val ∧ (i a).val < win0_2.index t a * S1x8x512.size a + S1x8x512.size a := by
  show i ∈ ((View.whole main_v1).slice (win0_2.rect t)).set ↔ _
  rw [View.set_slice_whole, Rect.mem_set_unit]
  exact Iff.rfl

/-- The array after the region: the two partial projections. -/
theorem final (c : Dev nD) : (dat0 V c).arrAt 2 cfg0.N = partials (V c main_arg0) (V c main_arg1) :=
  (dat0 V c).arrAt_eq_of_cover 2 (partials (V c main_arg0) (V c main_arg1)) (flushed_eq V c) fun i => by
    have hN : cfg0.N = 20 := N_0
    have hi0 : (i 0).val < 2 := (i 0).isLt
    have hi1 : (i 1).val < 8 := (i 1).isLt
    have hi2 : (i 2).val < 512 := (i 2).isLt
    have ht : 10 * (i 0).val + 9 < cfg0.N := by omega
    refine ⟨⟨10 * (i 0).val + 9, ht⟩, (flush0_2 _).mpr (by show (10 * (i 0).val + 9) % 10 = 9; omega), ?_⟩
    rw [mem_blk]
    obtain ⟨-, -, -, -, e4, e5, e6⟩ := idx0 ⟨10 * (i 0).val + 9, ht⟩
    have e4' : win0_2.index ⟨10 * (i 0).val + 9, ht⟩ (0 : Fin 3) = (i 0).val := by rw [e4]; show (10 * (i 0).val + 9) / 10 = _; omega
    intro a
    match a with
    | ⟨0, _⟩ => show win0_2.index ⟨10 * (i 0).val + 9, ht⟩ (0 : Fin 3) * 1 ≤ (i 0).val ∧ (i 0).val < win0_2.index ⟨10 * (i 0).val + 9, ht⟩ (0 : Fin 3) * 1 + 1; omega
    | ⟨1, _⟩ => show win0_2.index ⟨10 * (i 0).val + 9, ht⟩ (1 : Fin 3) * 8 ≤ (i 1).val ∧ (i 1).val < win0_2.index ⟨10 * (i 0).val + 9, ht⟩ (1 : Fin 3) * 8 + 8; omega
    | ⟨2, _⟩ => show win0_2.index ⟨10 * (i 0).val + 9, ht⟩ (2 : Fin 3) * 512 ≤ (i 2).val ∧ (i 2).val < win0_2.index ⟨10 * (i 0).val + 9, ht⟩ (2 : Fin 3) * 512 + 512; omega

/-- The two partial projections added are the projection: twenty tiles of 6400 are the 128000 columns. -/
theorem partials_add (L : S8x128000.Idx → EReal) (W : S128000x512.Idx → EReal) (b : Fin 8) (r : Fin 512) :
    partials L W (ix3 (0 : Fin 2) b r) + partials L W (ix3 (1 : Fin 2) b r) = Cert.Spec.down L W b r := by
  have h20 : partials L W (ix3 (0 : Fin 2) b r) + partials L W (ix3 (1 : Fin 2) b r) = ∑ t ∈ Finset.range (10 + 10), tile L W t b r := by
    rw [Finset.sum_range_add]
    unfold partials
    refine congrArg₂ (· + ·) (Finset.sum_congr rfl fun s _ => ?_) (Finset.sum_congr rfl fun s _ => ?_)
    · exact tile_congr L W (by show 10 * 0 + s = s; omega) rfl rfl
    · exact tile_congr L W (by show 10 * 1 + s = 10 + s; omega) rfl rfl
  rw [h20]
  unfold tile
  rw [Cert.NormAlgebra.sum_tiles (10 + 10) 6400 (fun v => Ln L b v * Wn W v r)]
  show ∑ v ∈ Finset.range 128000, Ln L b v * Wn W v r = _
  rw [Finset.sum_range]
  unfold Cert.Spec.down
  refine Finset.sum_congr rfl fun v _ => ?_
  unfold Ln Wn
  rw [dif_pos v.isLt, dif_pos v.isLt]

end Cert.KernelIdeal.Down

end
-- ==== Proof.UpPayload.lean ====
/-
  Region 1's payload at an index, over the extended reals: the block the body stores is, at row `b` and column `j` of
  the tile, the product of the projected matrix with the tile of `W` contracted along BOTH operands' second axis,
  `∑ᵣ a(b,r) · w(j,r)` — the product against the tile's transpose, with no transpose formed.
-/
import proofs.«155375_j38689065402635_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Up

open Cert.KernelIdeal Cert.KernelIdeal.Gen
open Idealize.ShloMosaic Idealize.ShloMosaic.ValueIdx

/-- The tile product's dimension record: both operands' columns contract. -/
abbrev dUp : DotDims S8x512 S6400x512 S8x6400 := dot_S8x512_S6400x512_S8x6400_1_1_0_0_n_n

theorem lhsUp_0 (i : S8x6400.Idx) (q : dUp.contr.Idx) : (dUp.lhsIdx i q 0).val = (i 0).val := by
  unfold DotDims.lhsIdx
  rw [dif_neg (show ¬(0 : Fin S8x512.rank) ∈ dUp.lhsBatch by decide),
    dif_pos (show (0 : Fin S8x512.rank) ∈ dUp.lhsNonContracting by decide)]
  rfl
theorem lhsUp_1 (i : S8x6400.Idx) (q : dUp.contr.Idx) : (dUp.lhsIdx i q 1).val = (q ⟨0, by decide⟩).val :=
  dUp.lhsIdx_val_of_single rfl i q
theorem rhsUp_1 (i : S8x6400.Idx) (q : dUp.contr.Idx) : (dUp.rhsIdx i q 1).val = (q ⟨0, by decide⟩).val :=
  dUp.rhsIdx_val_of_single rfl i q
theorem rhsUp_0 (i : S8x6400.Idx) (q : dUp.contr.Idx) : (dUp.rhsIdx i q 0).val = (i 1).val := by
  unfold DotDims.rhsIdx
  rw [dif_neg (show ¬(0 : Fin S6400x512.rank) ∈ dUp.rhsBatch by decide),
    dif_pos (show (0 : Fin S6400x512.rank) ∈ dUp.rhsNonContracting by decide)]
  rfl

/-- The stored block at `(b, j)`: the sum over the 512 columns. -/
theorem pay1_apply (a : Vec Ideal S8x512 .f32) (w : Vec Ideal S6400x512 .f32) (b : Fin 8) (j : Fin 6400) :
    k1_pay1 (F := Ideal) a w (ix2 b j) = ∑ r : Fin 512, a (ix2 b r) * w (ix2 j r) := by
  unfold k1_pay1
  refine (Ideal.matmul_constant_zero_apply dUp none _ _ (ix2 b j)).trans ?_
  rw [← Equiv.sum_comp (ValueIdx.contrEquiv1 dUp 512 rfl rfl).symm]
  refine Finset.sum_congr rfl fun k _ => ?_
  have hk := ValueIdx.contrEquiv1_symm_val dUp 512 rfl rfl k
  have el : dUp.lhsIdx (ix2 b j) ((ValueIdx.contrEquiv1 dUp 512 rfl rfl).symm k) = ix2 b k := funext fun a => Fin.ext (by
    match a with
    | ⟨0, _⟩ => exact lhsUp_0 _ _
    | ⟨1, _⟩ => exact (lhsUp_1 _ _).trans hk)
  have er : dUp.rhsIdx (ix2 b j) ((ValueIdx.contrEquiv1 dUp 512 rfl rfl).symm k) = ix2 j k := funext fun a => Fin.ext (by
    match a with
    | ⟨0, _⟩ => exact rhsUp_0 _ _
    | ⟨1, _⟩ => exact (rhsUp_1 _ _).trans hk)
  rw [el, er]
  show shapeCast S8x512 a shapeCasts_S8x512_S8x512 (ix2 b k) * w (ix2 j k) = _
  rw [shapeCast_self]

/-- The same at any index of the block. -/
theorem pay1_apply' (a : Vec Ideal S8x512 .f32) (w : Vec Ideal S6400x512 .f32) (y : S8x6400.Idx) :
    k1_pay1 (F := Ideal) a w y = ∑ r : Fin 512, a (ix2 (y 0) r) * w (ix2 (y 1) r) :=
  (congrArg (k1_pay1 (F := Ideal) a w) (eq_ix2 y)).trans (pay1_apply a w (y 0) (y 1))

end Cert.KernelIdeal.Up

end
-- ==== Proof.UpValue.lean ====
/-
  Region 1, from blocks to the array: point `t` reads the whole projected matrix `M` and tile `t` of `W` (its rows
  `6400·t … 6400·t + 6399`) and writes columns `6400·t … 6400·t + 6399` of the result, each entry
  `∑ᵣ M(b,r) · W(v,r)`; the twenty column blocks fill the [8, 128000] array.
-/
import proofs.«155375_j38689065402635_2_alg».proof.Proof.Gen.KernelIdeal.Frame
import proofs.«155375_j38689065402635_2_alg».proof.Proof.UpPayload
import Idealize.ShloMosaic.Lib.Pipeline.Value

set_option maxRecDepth 16384

noncomputable section

namespace Cert.KernelIdeal.Up

open Cert.KernelIdeal Cert.KernelIdeal.Gen
open Idealize.ShloMosaic Idealize.ShloMosaic.TcCoe Idealize.SL.Sem Idealize.ShloMosaic.ValueIdx
open Idealize.ShloMosaic.Pipeline (Dat)

/-- `M · Wᵀ`, entry by entry. -/
def upArr (M : S8x512.Idx → EReal) (W : S128000x512.Idx → EReal) : S8x128000.Idx → EReal :=
  fun i => ∑ r : Fin 512, M (ix2 (i 0) r) * W (ix2 (i 1) r)

theorem hz2 : (![0, 0] : Fin 2 → Nat) = fun _ => 0 := funext fun a => by fin_cases a <;> rfl

variable (V : (c : Dev nD) → (b : Ref sig .tc) → Buf (Elt Ideal) ((c : Thread nD τ).loc b))

/-- The printed index maps, decided over the grid: point `t` reads block (0, 0) of `M` and row block `t` of `W`, and
    writes column block `t`. -/
theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- What point `t` writes back is its block of `M · Wᵀ`. -/
theorem flushed_eq (c : Dev nD) (t : Fin cfg1.N) :
    (dat1 V c).flushed 2 t = ((cfg1.win 2).blk t).view.read (Elt Ideal) (upArr (V c main_v6) (V c main_arg1)) := by
  have ht : t.val < 20 := lt_of_lt_of_eq t.isLt N_1
  show (cfg1.win 2).cut (grid1.coords t) ((dat1 V c).after 2 t) = _
  rw [after1_2]
  unfold out1_2
  rw [View.canon_unit_zero hz2]
  simp only [View.ld_unit_zero (S := S8x512) hz2, View.ld_unit_zero (S := S6400x512) hz2]
  funext y
  refine (pay1_apply' (iblk1 V c 0 t) (iblk1 V c 1 t) y).trans ?_
  obtain ⟨e0, e1, e2, e3, e4, e5⟩ := idx1 t
  show _ = upArr (V c main_v6) (V c main_arg1) (((cfg1.win 2).blk t).view.emb y)
  unfold upArr
  refine Finset.sum_congr rfl fun r _ => ?_
  refine congrArg₂ (· * ·) ?_ ?_
  · show V c main_v6 (((cfg1.win 0).blk t).view.emb (ix2 (y 0) r)) = V c main_v6 (ix2 ((((cfg1.win 2).blk t).view.emb y) 0) r)
    refine congrArg (V c main_v6) (funext fun a => Fin.ext ?_)
    match a with
    | ⟨0, _⟩ => show win1_0.index t (0 : Fin 2) * 8 + 1 * (y 0).val = win1_2.index t (0 : Fin 2) * 8 + 1 * (y 0).val; omega
    | ⟨1, _⟩ => show win1_0.index t (1 : Fin 2) * 512 + 1 * r.val = r.val; omega
  · show V c main_arg1 (((cfg1.win 1).blk t).view.emb (ix2 (y 1) r)) = V c main_arg1 (ix2 ((((cfg1.win 2).blk t).view.emb y) 1) r)
    refine congrArg (V c main_arg1) (funext fun a => Fin.ext ?_)
    match a with
    | ⟨0, _⟩ => show win1_1.index t (0 : Fin 2) * 6400 + 1 * (y 1).val = win1_2.index t (1 : Fin 2) * 6400 + 1 * (y 1).val; omega
    | ⟨1, _⟩ => show win1_1.index t (1 : Fin 2) * 512 + 1 * r.val = r.val; omega

/-- An index of the array is in point `t`'s block iff each coordinate is in the block's range on its axis. -/
theorem mem_blk (t : Fin cfg1.N) (i : S8x128000.Idx) :
    i ∈ ((cfg1.win 2).blk t).view.set ↔ ∀ a : Fin 2, win1_2.index t a * S8x6400.size a ≤ (i a).val ∧ (i a).val < win1_2.index t a * S8x6400.size a + S8x6400.size a := by
  show i ∈ ((View.whole main_v7).slice (win1_2.rect t)).set ↔ _
  rw [View.set_slice_whole, Rect.mem_set_unit]
  exact Iff.rfl

/-- The array after the region: `M · Wᵀ` of the region-entry contents. -/
theorem final (c : Dev nD) : (dat1 V c).arrAt 2 cfg1.N = upArr (V c main_v6) (V c main_arg1) :=
  (dat1 V c).arrAt_eq_of_cover 2 (upArr (V c main_v6) (V c main_arg1)) (fun t _ => flushed_eq V c t) fun i => by
    have hN : cfg1.N = 20 := N_1
    have hi0 : (i 0).val < 8 := (i 0).isLt
    have hi1 : (i 1).val < 128000 := (i 1).isLt
    have ht : (i 1).val / 6400 < cfg1.N := by omega
    refine ⟨⟨(i 1).val / 6400, ht⟩, flush1_2 _, ?_⟩
    rw [mem_blk]
    obtain ⟨-, -, -, -, e4, e5⟩ := idx1 ⟨(i 1).val / 6400, ht⟩
    have e5' : win1_2.index ⟨(i 1).val / 6400, ht⟩ (1 : Fin 2) = (i 1).val / 6400 := e5
    intro a
    match a with
    | ⟨0, _⟩ => show win1_2.index ⟨(i 1).val / 6400, ht⟩ (0 : Fin 2) * 8 ≤ (i 0).val ∧ (i 0).val < win1_2.index ⟨(i 1).val / 6400, ht⟩ (0 : Fin 2) * 8 + 8; omega
    | ⟨1, _⟩ => show win1_2.index ⟨(i 1).val / 6400, ht⟩ (1 : Fin 2) * 6400 ≤ (i 1).val ∧ (i 1).val < win1_2.index ⟨(i 1).val / 6400, ht⟩ (1 : Fin 2) * 6400 + 6400; omega

end Cert.KernelIdeal.Up

end
-- ==== Proof.HostValue.lean ====
/-
  The host stretches of the kernel program, read: the buffer contents at each boundary of the run as functions of the
  two argument arrays `L` and `W`.
    before region 0:   l = ‖L‖;
    after region 0:    the two partial projections; the host adds them: M = L · W;
    after region 1:    Y = M · Wᵀ; the host normalizes Y, blends it with (c₃ / l) · L, normalizes the blend and
                       multiplies by l.
-/
import proofs.«155375_j38689065402635_2_alg».proof.Proof.DownFinal
import proofs.«155375_j38689065402635_2_alg».proof.Proof.UpValue
import Idealize.ShloMosaic.Lib.StableHlo.Run
import Idealize.ShloMosaic.Lib.Tactic

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx
open Cert.NormAlgebra Cert.Spec

/-- A buffer no operation of a host stretch writes holds after the stretch what it held before. -/
syntax "untouched " ident : tactic
macro_rules
  | `(tactic| untouched $ops:ident) => `(tactic|
      exact StableHlo.after_of_forall_not_mem _ _ (List.forall_iff_forall_mem.mp (by
        simp only [$ops:ident, List.Forall, StableHlo.nullary_writes, StableHlo.unary_writes, StableHlo.binary_writes,
          StableHlo.ternary_writes, StableHlo.quaternary_writes, StableHlo.reshape_writes, StableHlo.binaryIndexed_writes,
          Finset.mem_singleton]
        repeat' apply And.intro
        all_goals exact StableHlo.devRef_ne_of_ne (by decide))))

variable (m : (ℓ : Loc nD τ sig) → Buf (Elt Ideal) ℓ) (ρ : Dev nD → PrngReg)

/-- The host's Frobenius norm: the square root of the sum of all squares from the f32 zero. -/
def hostNorm (X : FVec Ideal S8x128000 .f32) : FVec Ideal S_ .f32 :=
  Host.sqrt (Host.reduceAdd (mulf X X) (constant S_ .f32 0x00000000#32) reducesTo_S8x128000_S_d0_1 h_S_)

/-- The blend the host forms after region 1, over a given norm `n` of `Y`: `c₇ · Y/n + (c₃ / l) · L`. -/
def blendWith (Y L : FVec Ideal S8x128000 .f32) (n l : FVec Ideal S_ .f32) : FVec Ideal S8x128000 .f32 :=
  addf (mulf (broadcastInDim S8x128000 ![] bcast_S_S8x128000 (constant S_ .f32 0x3F333333#32))
        (Host.divf Y (broadcastInDim S8x128000 ![] bcast_S_S8x128000 n)))
      (mulf (broadcastInDim S8x128000 ![] bcast_S_S8x128000 (Host.divf (constant S_ .f32 0x3E99999A#32) l)) L)

/-- The same with the norm the host computes. -/
def blendHost (Y L : FVec Ideal S8x128000 .f32) (l : FVec Ideal S_ .f32) : FVec Ideal S8x128000 .f32 :=
  blendWith Y L (hostNorm Y) l

/-- The last step: `P` over a given norm `n`, times `l`. -/
def lastFn (P : FVec Ideal S8x128000 .f32) (n l : FVec Ideal S_ .f32) : FVec Ideal S8x128000 .f32 :=
  mulf (Host.divf P (broadcastInDim S8x128000 ![] bcast_S_S8x128000 n)) (broadcastInDim S8x128000 ![] bcast_S_S8x128000 l)

/-- The stretch after region 1 as ONE function of the region's result `Y`, the argument `L` and the norm `l`. -/
def tailFn (Y L : FVec Ideal S8x128000 .f32) (l : FVec Ideal S_ .f32) :
    FVec Ideal S8x128000 .f32 :=
  lastFn (blendHost Y L l) (hostNorm (blendHost Y L l)) l

/-! ## Before region 0 -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_v0 (c : Dev nD) : W1 m ρ c (Proc.devRef .tc main_v0) = hostNorm (m ((c : Thread nD τ).loc main_arg0)) := by
  show StableHlo.after hostOps0 (W0 m ρ c) (Proc.devRef .tc main_v0) = _
  after_results <;> rfl

/-! ## Region 0, and the host's sum of its two blocks -/

theorem W2_v1 (c : Dev nD) : W2 m ρ c (Proc.devRef .tc main_v1)
    = Down.partials (m ((c : Thread nD τ).loc main_arg0)) (m ((c : Thread nD τ).loc main_arg1)) := by
  refine (W2_arr m ρ c 2).trans ?_
  rw [Down.final (V1 m ρ) c]
  show Down.partials (W1 m ρ c (Proc.devRef .tc main_arg0)) (W1 m ρ c (Proc.devRef .tc main_arg1)) = _
  rw [W1_arg0, W1_arg1]

theorem W2_v0 (c : Dev nD) : W2 m ρ c (Proc.devRef .tc main_v0) = W1 m ρ c (Proc.devRef .tc main_v0) :=
  W2_of_ne m ρ c main_v0 (by decide)
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)

theorem W3_v0 (c : Dev nD) : W3 m ρ c (Proc.devRef .tc main_v0) = W2 m ρ c (Proc.devRef .tc main_v0) := by
  untouched hostOps1
theorem W3_arg0 (c : Dev nD) : W3 m ρ c (Proc.devRef .tc main_arg0) = W2 m ρ c (Proc.devRef .tc main_arg0) := by
  untouched hostOps1
theorem W3_arg1 (c : Dev nD) : W3 m ρ c (Proc.devRef .tc main_arg1) = W2 m ρ c (Proc.devRef .tc main_arg1) := by
  untouched hostOps1

/-- The host's sum of the two blocks of a [2, 8, 512] array, as one function. -/
def sumBlocks (P : FVec Ideal S2x8x512 .f32) : FVec Ideal S8x512 .f32 :=
  addf (shapeCast S8x512 (extractStridedSlice S1x8x512 ![0, 0, 0] P slices_S2x8x512_S1x8x512_0_0_0) shapeCasts_S1x8x512_S8x512)
    (shapeCast S8x512 (extractStridedSlice S1x8x512 ![1, 0, 0] P slices_S2x8x512_S1x8x512_1_0_0) shapeCasts_S1x8x512_S8x512)

theorem W3_v6 (c : Dev nD) : W3 m ρ c (Proc.devRef .tc main_v6) = sumBlocks (W2 m ρ c (Proc.devRef .tc main_v1)) := by
  show StableHlo.after hostOps1 (W2 m ρ c) (Proc.devRef .tc main_v6) = _
  after_results <;> rfl

/-- Entry `(b, r)` of the sum is the sum of the two blocks' entries. -/
theorem sumBlocks_apply (P : S2x8x512.Idx → EReal) (b : Fin 8) (r : Fin 512) :
    sumBlocks P (ix2 b r) = P (ix3 (0 : Fin 2) b r) + P (ix3 (1 : Fin 2) b r) := by
  unfold sumBlocks
  refine (addf_apply _ _ (ix2 b r)).trans ?_
  rw [shapeCast_dropUnit_apply ![8, 512] _ _ (ix2 b r), shapeCast_dropUnit_apply ![8, 512] _ _ (ix2 b r)]
  rw [extractStridedSlice_apply ![0, 0, 0] P slices_S2x8x512_S1x8x512_0_0_0 _ (ix3 (0 : Fin 2) b r) (fun a => by
      match a with
      | ⟨0, _⟩ => show (0 : ℕ) = 0 + 0; rfl
      | ⟨1, _⟩ => show b.val = 0 + b.val; omega
      | ⟨2, _⟩ => show r.val = 0 + r.val; omega),
    extractStridedSlice_apply ![1, 0, 0] P slices_S2x8x512_S1x8x512_1_0_0 _ (ix3 (1 : Fin 2) b r) (fun a => by
      match a with
      | ⟨0, _⟩ => show (1 : ℕ) = 1 + 0; rfl
      | ⟨1, _⟩ => show b.val = 0 + b.val; omega
      | ⟨2, _⟩ => show r.val = 0 + r.val; omega)]

/-! ## Region 1 -/

theorem W4_v7 (c : Dev nD) : W4 m ρ c (Proc.devRef .tc main_v7)
    = Up.upArr (W3 m ρ c (Proc.devRef .tc main_v6)) (m ((c : Thread nD τ).loc main_arg1)) := by
  refine (W4_arr m ρ c 2).trans ?_
  rw [Up.final (V3 m ρ) c]
  show Up.upArr (W3 m ρ c (Proc.devRef .tc main_v6)) (W3 m ρ c (Proc.devRef .tc main_arg1)) = _
  rw [W3_arg1, W2_arg1]

theorem W4_v0 (c : Dev nD) : W4 m ρ c (Proc.devRef .tc main_v0) = W3 m ρ c (Proc.devRef .tc main_v0) :=
  W4_of_ne m ρ c main_v0 (by decide)
theorem W4_arg0 (c : Dev nD) : W4 m ρ c (Proc.devRef .tc main_arg0) = W3 m ρ c (Proc.devRef .tc main_arg0) :=
  W4_of_ne m ρ c main_arg0 (by decide)

/-! ## After region 1 -/

theorem W5_v8 (c : Dev nD) : W5 m ρ c (Proc.devRef .tc main_v8) = hostNorm (W4 m ρ c (Proc.devRef .tc main_v7)) := by
  show StableHlo.after hostOps2 (W4 m ρ c) (Proc.devRef .tc main_v8) = _
  after_results <;> rfl
theorem W5_v7 (c : Dev nD) : W5 m ρ c (Proc.devRef .tc main_v7) = W4 m ρ c (Proc.devRef .tc main_v7) := by
  untouched hostOps2
theorem W5_v0 (c : Dev nD) : W5 m ρ c (Proc.devRef .tc main_v0) = W4 m ρ c (Proc.devRef .tc main_v0) := by
  untouched hostOps2
theorem W5_arg0 (c : Dev nD) : W5 m ρ c (Proc.devRef .tc main_arg0) = W4 m ρ c (Proc.devRef .tc main_arg0) := by
  untouched hostOps2

theorem W6_v16 (c : Dev nD) : W6 m ρ c (Proc.devRef .tc main_v16)
    = blendWith (W5 m ρ c (Proc.devRef .tc main_v7)) (W5 m ρ c (Proc.devRef .tc main_arg0))
        (W5 m ρ c (Proc.devRef .tc main_v8)) (W5 m ρ c (Proc.devRef .tc main_v0)) := by
  show StableHlo.after hostOps2_1 (W5 m ρ c) (Proc.devRef .tc main_v16) = _
  generalize W5 m ρ c = Vb
  after_results <;> rfl
theorem W6_v0 (c : Dev nD) : W6 m ρ c (Proc.devRef .tc main_v0) = W5 m ρ c (Proc.devRef .tc main_v0) := by
  untouched hostOps2_1

theorem W7_v17 (c : Dev nD) : W7 m ρ c (Proc.devRef .tc main_v17) = hostNorm (W6 m ρ c (Proc.devRef .tc main_v16)) := by
  show StableHlo.after hostOps2_2 (W6 m ρ c) (Proc.devRef .tc main_v17) = _
  generalize W6 m ρ c = Vb
  after_results <;> rfl
theorem W7_v16 (c : Dev nD) : W7 m ρ c (Proc.devRef .tc main_v16) = W6 m ρ c (Proc.devRef .tc main_v16) := by
  untouched hostOps2_2
theorem W7_v0 (c : Dev nD) : W7 m ρ c (Proc.devRef .tc main_v0) = W6 m ρ c (Proc.devRef .tc main_v0) := by
  untouched hostOps2_2

theorem W8_v21' (c : Dev nD) : W8 m ρ c (Proc.devRef .tc main_v21)
    = lastFn (W7 m ρ c (Proc.devRef .tc main_v16)) (W7 m ρ c (Proc.devRef .tc main_v17)) (W7 m ρ c (Proc.devRef .tc main_v0)) := by
  show StableHlo.after hostOps2_3 (W7 m ρ c) (Proc.devRef .tc main_v21) = _
  generalize W7 m ρ c = Vb
  after_results <;> rfl

theorem W8_v21 (c : Dev nD) : W8 m ρ c (Proc.devRef .tc main_v21)
    = tailFn (W4 m ρ c (Proc.devRef .tc main_v7)) (W4 m ρ c (Proc.devRef .tc main_arg0)) (W4 m ρ c (Proc.devRef .tc main_v0)) := by
  rw [W8_v21', W7_v17, W7_v16, W7_v0, W6_v16, W6_v0, W5_v8, W5_v7, W5_v0, W5_arg0]
  rfl

end Cert.KernelIdeal.HostValue

end
-- ==== Proof.KernelRun.lean ====
/-
  The idealized kernel program's run with its result NAMED: every weakly fair execution of @main terminates, nothing
  faulting, with the result buffer at the contents the last boundary of the run holds for it (the fold of the host
  stretches and the two regions' write-backs from the launch memory, `Gen.W8`), and the two argument arrays as launched.
  The frame run reads only the arguments out of its last thread state; that state holds EVERY unscoped buffer at the
  last boundary's contents, so the result buffer is read out of it in the same way.
-/
import proofs.«155375_j38689065402635_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read out of the last thread state beside the arguments. -/
theorem run_result : θ_run defs (onTc (τ := τ) (main (F := F))) ⟨m, fun _ => 0, ρ⟩ (fun r => ∀ c : Dev nD,
      r.2.mem ((c.tc : Thread nD τ).loc main_v21) = W8 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v21 (by decide)),
       (h c _ (mem_uc main_arg0 (by decide))).trans (W8_main_arg0 m ρ c),
       (h c _ (mem_uc main_arg1 (by decide))).trans (W8_main_arg1 m ρ c)⟩)

end Cert.KernelIdeal.KRun

end
-- ==== Proof.KernelValue.lean ====
/-
  The kernel program's result is `Spec.outK` of its two arguments. The host's norm is `NormAlgebra.nrm` from the f32
  zero; a scalar broadcast reads the scalar at every index; so the stretch after region 1 is, index by index, the blend
  `c₇ · Y/‖Y‖ + (c₃ / l) · L` normalized and multiplied by `l`, with `l = ‖L‖` and `Y = (L · W) · Wᵀ` — region 0's two
  partial projections added are `L · W` (`Down.partials_add`), and region 1 multiplies it with `Wᵀ` (`Up.upArr`).
-/
import proofs.«155375_j38689065402635_2_alg».proof.Proof.HostValue
import proofs.«155375_j38689065402635_2_alg».proof.Proof.KernelRun

set_option maxRecDepth 16384

noncomputable section

namespace Cert.KernelIdeal.KValue

open Cert.KernelIdeal Cert.KernelIdeal.Gen Cert.KernelIdeal.HostValue
open Idealize.ShloMosaic Idealize.ShloMosaic.TcCoe Idealize.SL.Sem Idealize.ShloMosaic.ValueIdx
open Cert.NormAlgebra Cert.Spec

/-- A broadcast of a scalar reads the scalar at every index. -/
theorem bc_apply (x : FVec Ideal S_ .f32) (j : S8x128000.Idx) :
    broadcastInDim S8x128000 ![] bcast_S_S8x128000 x j = x ix0 :=
  broadcastInDim_apply _ bcast_S_S8x128000 x j ix0 (fun a => a.elim0)

/-- The host's quotient and square root, read at an index. -/
theorem hdivf_apply {s : Shape} (a b : FVec Ideal s .f32) (i : s.Idx) : Host.divf a b i = Ideal.div (a i) (b i) := rfl
theorem hsqrt_apply {s : Shape} (a : FVec Ideal s .f32) (i : s.Idx) : Host.sqrt a i = Ideal.sqrt (a i) := rfl

/-- The host's sum of all entries from the f32 zero. -/
theorem hostSum_apply (y : FVec Ideal S8x128000 .f32) (i : S_.Idx) :
    Host.reduceAdd (F := Ideal) y (constant S_ .f32 0x00000000#32) reducesTo_S8x128000_S_d0_1 h_S_ i = z0 + ∑ j, y j := by
  simp only [Host.reduceAdd, Ideal.hostReduceAdd_def]
  exact Ideal.hostReduceAdd_total reducesTo_S8x128000_S_d0_1 (fun b => b.elim0) y _ i

/-- The host's norm is the square root of the f32 zero plus the sum of all squares. -/
theorem hostNorm_apply (X : FVec Ideal S8x128000 .f32) (i : S_.Idx) : hostNorm X i = nrm z0 X := by
  unfold hostNorm nrm
  rw [hsqrt_apply, hostSum_apply]
  rfl

/-- The host's blend is `blendK` when `l` is the norm of `L`. -/
theorem blendHost_eq (Y L : FVec Ideal S8x128000 .f32) (l : FVec Ideal S_ .f32) (hl : ∀ i, l i = nrm z0 L) :
    blendHost Y L l = blendK z0 c7 c3 L Y := by
  funext j
  unfold blendHost blendWith blendK
  rw [addf_apply, mulf_apply, mulf_apply, hdivf_apply, bc_apply, bc_apply, bc_apply, hostNorm_apply, hdivf_apply, hl]
  rfl

/-- The stretch after region 1 is the rescaled blend. -/
theorem tailFn_eq (Y L : FVec Ideal S8x128000 .f32) (l : FVec Ideal S_ .f32) (hl : ∀ i, l i = nrm z0 L) :
    tailFn Y L l = rescale z0 (nrm z0 L) (blendK z0 c7 c3 L Y) := by
  funext i
  unfold tailFn lastFn rescale
  rw [blendHost_eq Y L l hl, mulf_apply, hdivf_apply, bc_apply, bc_apply, hostNorm_apply, hl]

/-- Region 1's product of the summed partial projections with `Wᵀ` is `Spec.upK`. -/
theorem upArr_eq (L : FVec Ideal S8x128000 .f32) (W : FVec Ideal S128000x512 .f32) :
    Up.upArr (sumBlocks (Down.partials L W)) W = upK L W := by
  funext i
  obtain ⟨b, v, rfl⟩ : ∃ (b : Fin 8) (v : Fin 128000), i = ix2 b v := ⟨i 0, i 1, eq_ix2 i⟩
  show ∑ r : Fin 512, sumBlocks (Down.partials L W) (ix2 b r) * W (ix2 v r) = ∑ r : Fin 512, down L W b r * W (ix2 v r)
  refine Finset.sum_congr rfl fun r _ => ?_
  rw [sumBlocks_apply, Down.partials_add]

variable (m : (ℓ : Loc nD τ sig) → Buf (Elt Ideal) ℓ) (ρ : Dev nD → PrngReg)

/-- The result buffer's contents at the last boundary of the run. -/
theorem W8_eq (c : Dev nD) : W8 m ρ c (Proc.devRef .tc main_v21)
    = outK (m ((c : Thread nD τ).loc main_arg0)) (m ((c : Thread nD τ).loc main_arg1)) := by
  rw [W8_v21, W4_v7, W4_arg0, W3_arg0, W2_arg0, W4_v0, W3_v0, W2_v0, W1_v0, W3_v6, W2_v1]
  rw [tailFn_eq _ _ _ (fun i => hostNorm_apply _ i), upArr_eq]
  rfl

/-- THE RUN, READ: every weakly fair execution of the kernel program terminates with the result at `Spec.outK` of the
    launch contents of the arguments, and the arguments unchanged. -/
theorem run : θ_run defs (onTc (τ := τ) (main (F := Ideal))) ⟨m, fun _ => 0, ρ⟩ (fun r => ∀ c : Dev nD,
      r.2.mem ((c.tc : Thread nD τ).loc main_v21) = outK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W8_eq m ρ c), (h c).2⟩) (Cert.KernelIdeal.KRun.run_result m ρ)

end Cert.KernelIdeal.KValue

end
-- ==== Proof.RefValue.lean ====
/-
  The reference program's result is `Spec.outR` of its two arguments: read one operation at a time, the run's term
  is, index by index, the norm of `L`, the quotient `L / ‖L‖`, its two matrix products (the second against the
  transpose of `W`, which reads `W` at the swapped index), the norm of that image, the blend and the rescaling.
-/
import proofs.«155375_j38689065402635_2_alg».proof.Proof.Gen.ReferenceIdeal.Read
import proofs.«155375_j38689065402635_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.NormAlgebra Cert.Spec

/-- The norm of `L`: the square root of the zero word plus the sum of all squares of `L`. -/
theorem norm_L (x0 : (⟨S8x128000, .f32⟩ : BufTy).Contents (Elt Ideal)) (j : S_.Idx) :
    val_main_v0 (F := Ideal) x0 j = nrm z0 x0 := by
  rw [val_main_v0_apply, val_main_call0_v1_apply, val_main_call0_cst_apply]
  simp only [val_main_call0_v0_apply, Ideal.hostUnary_sqrt_def, Ideal.mulf_def, Ideal.ofBits_def]
  rfl

/-- The quotient `L / ‖L‖`, entry by entry. -/
theorem quot_L (x0 : (⟨S8x128000, .f32⟩ : BufTy).Contents (Elt Ideal)) (i : S8x128000.Idx) :
    val_main_v2 (F := Ideal) x0 i = Ideal.div (x0 i) (nrm z0 x0) := by
  rw [val_main_v2_apply, val_main_v1_apply, norm_L, Ideal.hostDivf_def]

/-- The first product reads the quotient at row `b` of the result index and the contraction's column. -/
theorem lidx_down (i : S8x128000.Idx) (r : Fin 512) (v : Fin 128000) :
    lidx_main_v3 (lidx_main_v5 i r) v = ix2 (n0 := 8) (n1 := 128000) (i 0) v :=
  funext fun a => Fin.ext (by match a with | ⟨0, _⟩ => rfl | ⟨1, _⟩ => rfl)

/-- The first product reads `W` at the contraction's row and the column `r`. -/
theorem ridx_down (i : S8x128000.Idx) (r : Fin 512) (v : Fin 128000) :
    ridx_main_v3 (lidx_main_v5 i r) v = ix2 (n0 := 128000) (n1 := 512) v r :=
  funext fun a => Fin.ext (by match a with | ⟨0, _⟩ => rfl | ⟨1, _⟩ => rfl)

/-- The second product reads the transpose of `W`, that is `W` at the swapped index. -/
theorem idx_up (i : S8x128000.Idx) (r : Fin 512) :
    idx_main_v4 (ridx_main_v5 i r) = ix2 (n0 := 128000) (n1 := 512) (i 1) r :=
  funext fun a => Fin.ext (by match a with | ⟨0, _⟩ => rfl | ⟨1, _⟩ => rfl)

/-- The two matrix products: the image of the quotient through `W` and back through its transpose. -/
theorem up_eq (x0 : (⟨S8x128000, .f32⟩ : BufTy).Contents (Elt Ideal)) (x1 : (⟨S128000x512, .f32⟩ : BufTy).Contents (Elt Ideal)) :
    val_main_v5 (F := Ideal) x0 x1 = upR x0 x1 := by
  funext i
  rw [val_main_v5_apply]
  unfold upR upRAt
  refine Finset.sum_congr rfl fun r _ => ?_
  rw [val_main_v3_apply, val_main_v4_apply, idx_up]
  have hs : ∑ k : Fin 128000, val_main_v2 (F := Ideal) x0 (lidx_main_v3 (lidx_main_v5 i r) k) * x1 (ridx_main_v3 (lidx_main_v5 i r) k)
      = ∑ v' : Fin 128000, Ideal.div (x0 (ix2 (n0 := 8) (n1 := 128000) (i 0) v')) (nrm z0 x0) * x1 (ix2 (n0 := 128000) (n1 := 512) v' r) :=
    Finset.sum_congr rfl fun v _ => by rw [quot_L, lidx_down, ridx_down]
  rw [hs]

/-- The norm of the image. -/
theorem norm_up (x0 : (⟨S8x128000, .f32⟩ : BufTy).Contents (Elt Ideal)) (x1 : (⟨S128000x512, .f32⟩ : BufTy).Contents (Elt Ideal))
    (j : S_.Idx) : val_main_v6 (F := Ideal) x0 x1 j = nrm z0 (upR x0 x1) := by
  rw [val_main_v6_apply, val_main_call1_v1_apply, val_main_call1_cst_apply]
  simp only [val_main_call1_v0_apply, Ideal.hostUnary_sqrt_def, Ideal.mulf_def, Ideal.ofBits_def, up_eq]
  rfl

/-- The blend of the normalized image and the normalized input. -/
theorem blend_eq (x0 : (⟨S8x128000, .f32⟩ : BufTy).Contents (Elt Ideal)) (x1 : (⟨S128000x512, .f32⟩ : BufTy).Contents (Elt Ideal)) :
    val_main_v13 (F := Ideal) x0 x1 = blendR z0 c7 c3 x0 (upR x0 x1) := by
  funext i
  rw [val_main_v13_apply, val_main_v10_apply, val_main_v12_apply, val_main_v9_apply, val_main_v11_apply,
    val_main_cst_apply, val_main_cst_0_apply, val_main_v8_apply, val_main_v7_apply, norm_up, quot_L, up_eq]
  simp only [Ideal.addf_def, Ideal.mulf_def, Ideal.hostDivf_def, Ideal.ofBits_def]
  rfl

/-- The norm of the blend. -/
theorem norm_blend (x0 : (⟨S8x128000, .f32⟩ : BufTy).Contents (Elt Ideal)) (x1 : (⟨S128000x512, .f32⟩ : BufTy).Contents (Elt Ideal))
    (j : S_.Idx) : val_main_v14 (F := Ideal) x0 x1 j = nrm z0 (blendR z0 c7 c3 x0 (upR x0 x1)) := by
  rw [val_main_v14_apply, val_main_call2_v1_apply, val_main_call2_cst_apply]
  simp only [val_main_call2_v0_apply, Ideal.hostUnary_sqrt_def, Ideal.mulf_def, Ideal.ofBits_def, blend_eq]
  rfl

/-- The reference's last stage, as a function of the two argument arrays, is `Spec.outR`. -/
theorem ref_eq (x0 : (⟨S8x128000, .f32⟩ : BufTy).Contents (Elt Ideal)) (x1 : (⟨S128000x512, .f32⟩ : BufTy).Contents (Elt Ideal)) :
    val_main_v18 (F := Ideal) x0 x1 = Cert.Spec.outR x0 x1 := by
  funext i
  rw [val_main_v18_apply, val_main_v16_apply, val_main_v17_apply, val_main_v15_apply, norm_blend, norm_L, blend_eq]
  simp only [Ideal.mulf_def, Ideal.hostDivf_def]
  rfl

end Cert.ReferenceIdeal.RefValue

end
-- ==== Proof.Finite.lean ====
/-
  The precondition, read: when the printed predicate `finite_inputs` is all ones at the extended reals, every entry of
  both argument arrays is a real number (neither infinity): `|x| < +∞` holds of an extended real exactly when it is real.
-/
import proofs.«155375_j38689065402635_2_alg».proof.Pre_finite_inputs
import proofs.«155375_j38689065402635_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The scalar shape has one index. -/
instance subsingleton_scalar_idx : Subsingleton S_.Idx := ⟨fun a b => funext fun d => d.elim0⟩

/-- The f32 word with all exponent bits set and no fraction bit denotes `+∞`. -/
theorem inf_word : Ideal.ofBits .f32 0x7F800000#32 = (⊤ : EReal) := by
  simp [Ideal.ofBits, Ideal.ieee]

/-- An extended real whose absolute value `max x (-x)` is below `+∞` is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A scalar broadcast to any shape reads the scalar everywhere. -/
theorem bcast_scalar {α : Type} {t : Shape} (h : S_.BroadcastsInDim t (![] : Fin 0 → Fin t.rank)) (x : S_.Idx → α) (j : t.Idx) :
    broadcastInDim t ![] h x j = x ValueIdx.ix0 := by
  unfold broadcastInDim
  exact congrArg x (funext fun a => a.elim0)

/-- Under the precondition both arrays are real-valued. -/
theorem real_of_pre [Cert.Pre_finite_inputs.Facts] (x0 : FVec Ideal S8x128000 .f32) (x1 : FVec Ideal S128000x512 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  -- one entry: the comparison `|x| < +∞` came out 1, so `x` is real
  have entry : ∀ x : EReal, Ideal.cmp .olt (max x (-x)) (Ideal.ofBits .f32 0x7F800000#32) = 1#1 → ∃ r : ℝ, x = (r : EReal) :=
    fun x hx => real_of_abs_lt_top x (by rw [← inf_word]; exact hx)
  constructor
  · intro i
    have hi := Host.reduce_andi_all _ _ _ _ _ ha i
    rw [ValueIdx.cmpf_apply, bcast_scalar] at hi
    exact entry (x0 i) hi
  · intro i
    have hi := Host.reduce_andi_all _ _ _ _ _ hb i
    rw [ValueIdx.cmpf_apply, bcast_scalar] at hi
    exact entry (x1 i) hi

end Cert.Finite

end
-- ==== Proof.Bridge.lean ====
/-
  The two results agree on real arguments. With `L = ↑Lr` and `W = ↑Wr` real, the kernel's low-rank image is the real
  matrix `y = (Lr · Wr) · Wrᵀ` and the reference's, formed from `L / ‖L‖`, is `y / ‖Lr‖` whenever `‖Lr‖ ≠ 0` — the
  factor `1/‖Lr‖` moves out of both sums over the reals —, which is what `NormAlgebra.final_eq` asks.
-/
import proofs.«155375_j38689065402635_2_alg».proof.Proof.Spec

noncomputable section

namespace Cert.Spec

open Idealize.ShloMosaic Idealize.ShloMosaic.ValueIdx Cert.NormAlgebra

/-- On arrays of reals the kernel program's result is the reference program's. -/
theorem outK_eq_outR (L : SL.Idx → EReal) (W : SW.Idx → EReal)
    (hL : ∀ i, ∃ r : ℝ, L i = (r : EReal)) (hW : ∀ i, ∃ r : ℝ, W i = (r : EReal)) : outK L W = outR L W := by
  choose Lr hLr using hL
  choose Wr hWr using hW
  have hn : nrm z0 L = ((Real.sqrt (∑ j, Lr j * Lr j) : ℝ) : EReal) := by
    have hLf : L = fun j => (Lr j : EReal) := funext hLr
    rw [hLf, show z0 = (0 : EReal) from Ideal.ofBits_zero_f32]
    exact nrm_coe Lr
  unfold outK outR
  refine final_eq z0 c7 c3 Ideal.ofBits_zero_f32 L (upK L W) (upR L W) Lr hLr
    (fun i => ∑ r : Fin 512, (∑ v' : Fin 128000, Lr (ix2 (i 0) v') * Wr (ix2 v' r)) * Wr (ix2 (i 1) r)) ?_ ?_
  · intro i
    unfold upK upKAt down
    simp only [hLr, hWr]
    exact up_down_real (fun b v => Lr (ix2 b v)) (fun v r => Wr (ix2 v r)) (i 0) (i 1)
  · intro hl i
    unfold upR upRAt
    simp only [hn, hLr, hWr]
    exact up_down_scaled (fun b v => Lr (ix2 b v)) (fun v r => Wr (ix2 v r)) _ hl (i 0) (i 1)

end Cert.Spec

end
-- ==== Proof.lean ====
/-
  A norm-preserving blend of a matrix `L` (8 × 128000) with its low-rank image through `W` (128000 × 512):

      l = ‖L‖,   Y = (L · W) · Wᵀ,   P = c₇ · Y/‖Y‖ + c₃ · L/l,   result = P/‖P‖ · l      (‖·‖ the Frobenius norm).

  The kernel program forms `L · W` in two halves of ten tiles each (region 0: each half accumulated tile by tile in
  its own output block, the two blocks added by the host), multiplies by `Wᵀ` tile by tile (region 1), and takes
  `Y` from `L` itself, scaling `L` by the quotient `c₃ / l`. The reference program divides `L` by `l` first, and forms
  `Y` from the quotient with two whole matrix products. Over the extended reals the tile sums are the whole sums
  (addition is commutative and associative there), changes of float format are the identity, and on REAL arguments
  the factor `1/l` moves out of the two products and cancels in `Y/‖Y‖` when `l ≠ 0`; when `l = 0` both results are
  the zero matrix, because the last step multiplies by `l`. That the arguments are real is the precondition.

  The frames of the two kernel programs are the generated frame certificates; the reference's frame is its
  generated run with the result dropped; the idealization rewrote nothing, so `preserves` is trivial.
-/
import proofs.«155375_j38689065402635_2_alg».proof.Defs
import proofs.«155375_j38689065402635_2_alg».proof.Proof.Gen.Kernel
import proofs.«155375_j38689065402635_2_alg».proof.Proof.Gen.Kernel.Skeleton
import proofs.«155375_j38689065402635_2_alg».proof.Proof.Gen.Kernel.Launch
import proofs.«155375_j38689065402635_2_alg».proof.Proof.Gen.Kernel.Points
import proofs.«155375_j38689065402635_2_alg».proof.Proof.Gen.Kernel.Frame
import proofs.«155375_j38689065402635_2_alg».proof.Proof.Gen.KernelIdeal
import proofs.«155375_j38689065402635_2_alg».proof.Proof.Gen.KernelIdeal.Skeleton
import proofs.«155375_j38689065402635_2_alg».proof.Proof.Gen.KernelIdeal.Launch
import proofs.«155375_j38689065402635_2_alg».proof.Proof.Gen.KernelIdeal.Points
import proofs.«155375_j38689065402635_2_alg».proof.Proof.Gen.KernelIdeal.Frame
import proofs.«155375_j38689065402635_2_alg».proof.Proof.Gen.ReferenceIdeal
import proofs.«155375_j38689065402635_2_alg».proof.Proof.Gen.ReferenceIdeal.Read
import proofs.«155375_j38689065402635_2_alg».proof.Proof.Gen.Pre_finite_inputs
import proofs.«155375_j38689065402635_2_alg».proof.Proof.KernelValue
import proofs.«155375_j38689065402635_2_alg».proof.Proof.RefValue
import proofs.«155375_j38689065402635_2_alg».proof.Proof.Finite
import proofs.«155375_j38689065402635_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the kernel's run ends at `Spec.outK` of its arguments, the reference's
    at `Spec.outR` of arguments that agree with them, and on the real arguments the precondition grants the two are
    one array. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq, (hagree c).1, (hagree c).2]
  obtain ⟨h0, h1⟩ := Cert.Finite.real_of_pre _ _ (hpre c)
  exact (Cert.Spec.outK_eq_outR _ _ h0 h1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
